-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S512x512 : Shape := ⟨2, ![512, 512]⟩
abbrev S4096 : Shape := ⟨1, ![4096]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x8192x512 .f32) (main_arg1 : IVec S512x512 32) (main_arg2 : FVec F S4096 .f32) (main_arg3 : FVec F S512x512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4x8192x512 : Shape := ⟨3, ![4, 8192, 512]⟩
abbrev S512x512 : Shape := ⟨2, ![512, 512]⟩
abbrev S4096 : Shape := ⟨1, ![4096]⟩
abbrev S16 : Shape := ⟨1, ![16]⟩
abbrev S_ : Shape := ⟨0, ![]⟩
abbrev S512x512x1 : Shape := ⟨3, ![512, 512, 1]⟩
abbrev S4096x64 : Shape := ⟨2, ![4096, 64]⟩
abbrev S4096x1 : Shape := ⟨2, ![4096, 1]⟩
abbrev S32768x512 : Shape := ⟨2, ![32768, 512]⟩
abbrev S2048x512 : Shape := ⟨2, ![2048, 512]⟩

abbrev nBuf : Space → Nat
  | .hbm => 25
  | .vmem => 5
  | .smem => 0
  | _ => 0

abbrev bufTy : (tb : Table) → Fin (tcTables nBuf tb) → BufTy
  | .hbm, ⟨0, _⟩ => ⟨S4x8192x512, .f32⟩
  | .hbm, ⟨1, _⟩ => ⟨S512x512, .i32⟩
  | .hbm, ⟨2, _⟩ => ⟨S4096, .f32⟩
  | .hbm, ⟨3, _⟩ => ⟨S512x512, .f32⟩
  | .hbm, ⟨4, _⟩ => ⟨S16, .f32⟩
  | .hbm, ⟨5, _⟩ => ⟨S_, .i32⟩
  | .hbm, ⟨6, _⟩ => ⟨S512x512, .i32⟩
  | .hbm, ⟨7, _⟩ => ⟨S512x512, .i1⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512x1, .i32⟩
  | .hbm, ⟨13, _⟩ => ⟨S512x512, .f32⟩
  | .hbm, ⟨14, _⟩ => ⟨S4096x64, .f32⟩
  | .hbm, ⟨15, _⟩ => ⟨S4096x1, .f32⟩
  | .hbm, ⟨16, _⟩ => ⟨S4096x64, .f32⟩
  | .hbm, ⟨17, _⟩ => ⟨S4096x64, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .bf16⟩
  | .hbm, ⟨22, _⟩ => ⟨S32768x512, .f32⟩
  | .hbm, ⟨23, _⟩ => ⟨S32768x512, .f32⟩
  | .hbm, ⟨24, _⟩ => ⟨S4x8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  shapeCasts_S512x512_S4096x64 : S512x512.ShapeCasts S4096x64
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  shapeCasts_S4096x64_S512x512 : S4096x64.ShapeCasts S512x512
  transposes_S512x512_S512x512_1_0 : S512x512.Transposes [1, 0] S512x512
  bitsLt_bf16_f32 : FTy.bits .bf16 < FTy.bits .f32
  shapeCasts_S4x8192x512_S32768x512 : S4x8192x512.ShapeCasts S32768x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32768x512_S4x8192x512 : S32768x512.ShapeCasts S4x8192x512
  gather_S16_S512x512x1_S512x512_n_0_n_n_0_2_1_wf : GatherDims.WF S16 S512x512x1 S512x512 [] [0] [] [0] [] 2 ![1]
  dot_S512x512_S512x512_S512x512_1_0_0_1_n_n_wf : DotDims.WF S512x512 S512x512 S512x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S32768x512.size a
  hwx0_2 : ∀ i : grid0.Coords, EltTy.bits .f32 = 32 ∨ (Rect.block (s := S32768x512) S2048x512.size (cc0_transform_2 i) (hinb0_2 i)).WholeWords (EltTy.packing .f32)

variable [Facts₀]

def gather_S16_S512x512x1_S512x512_n_0_n_n_0_2_1 : GatherDims S16 S512x512x1 S512x512 where
  offsetDims := []
  collapsedSliceDims := [0]
  operandBatchingDims := []
  startIndicesBatchingDims := []
  startIndexMap := [0]
  indexVectorDim := 2
  sliceSizes := ![1]
  wf := gather_S16_S512x512x1_S512x512_n_0_n_n_0_2_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v15) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x512 : Shape := ⟨3, ![4, 8192, 512]⟩
abbrev S512x512 : Shape := ⟨2, ![512, 512]⟩
abbrev S4096 : Shape := ⟨1, ![4096]⟩
abbrev S16 : Shape := ⟨1, ![16]⟩
abbrev S_ : Shape := ⟨0, ![]⟩
abbrev S512x512x1 : Shape := ⟨3, ![512, 512, 1]⟩
abbrev S4096x64 : Shape := ⟨2, ![4096, 64]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S512x512, .i32⟩
  | .hbm, ⟨2, _⟩ => ⟨S4096, .f32⟩
  | .hbm, ⟨3, _⟩ => ⟨S512x512, .f32⟩
  | .hbm, ⟨4, _⟩ => ⟨S16, .f32⟩
  | .hbm, ⟨5, _⟩ => ⟨S_, .i32⟩
  | .hbm, ⟨6, _⟩ => ⟨S512x512, .i32⟩
  | .hbm, ⟨7, _⟩ => ⟨S512x512, .i1⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512x1, .i32⟩
  | .hbm, ⟨13, _⟩ => ⟨S512x512, .f32⟩
  | .hbm, ⟨14, _⟩ => ⟨S4096x64, .f32⟩
  | .hbm, ⟨15, _⟩ => ⟨S4096x1, .f32⟩
  | .hbm, ⟨16, _⟩ => ⟨S4096x64, .f32⟩
  | .hbm, ⟨17, _⟩ => ⟨S4096x64, .f32⟩
  | .hbm, ⟨18, _⟩ => ⟨S512x512, .f32⟩
  | .hbm, ⟨19, _⟩ => ⟨S4x8192x512, .f32⟩
  | .hbm, ⟨20, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  shapeCasts_S512x512_S4096x64 : S512x512.ShapeCasts S4096x64
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  shapeCasts_S4096x64_S512x512 : S4096x64.ShapeCasts S512x512
  gather_S16_S512x512x1_S512x512_n_0_n_n_0_2_1_wf : GatherDims.WF S16 S512x512x1 S512x512 [] [0] [] [0] [] 2 ![1]
  dot_S4x8192x512_S512x512_S4x8192x512_2_1_01_0_n_n_wf : DotDims.WF S4x8192x512 S512x512 S4x8192x512 [2] [1] [0, 1] [0] [] []

variable [Facts₀]

def gather_S16_S512x512x1_S512x512_n_0_n_n_0_2_1 : GatherDims S16 S512x512x1 S512x512 where
  offsetDims := []
  collapsedSliceDims := [0]
  operandBatchingDims := []
  startIndicesBatchingDims := []
  startIndexMap := [0]
  indexVectorDim := 2
  sliceSizes := ![1]
  wf := gather_S16_S512x512x1_S512x512_n_0_n_n_0_2_1_wf
def dot_S4x8192x512_S512x512_S4x8192x512_2_1_01_0_n_n : DotDims S4x8192x512 S512x512 S4x8192x512 where
  lhsContracting := [2]
  rhsContracting := [1]
  lhsNonContracting := [0, 1]
  rhsNonContracting := [0]
  lhsBatch := []
  rhsBatch := []
  wf := dot_S4x8192x512_S512x512_S4x8192x512_2_1_01_0_n_n_wf

class Facts : Prop extends Facts₀ where

variable [Facts]
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.KernelBlock.lean ====
/-
  The kernel body's one store, read at an index.

  The body loads a block of 2048 rows of activations and the whole folded-weights matrix, narrows the rows to bf16 (the
  identity on exact values), and stores their product accumulated from zero.  At row `p` and column `q` of the block
  that is the sum over `k` of row `p` of the activations at `k` times the folded weights at `(k, q)`.
-/
import proofs.«100827_j34935263985944_2_alg».proof.Proof.Gen.KernelIdeal.Skeleton
import proofs.«100827_j34935263985944_2_alg».proof.Proof.LibPlainDot
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The printed dimension numbers of the body's product are those of a plain 2048×512 by 512×512 product. -/
theorem bodyDot_eq : dot_S2048x512_S512x512_S2048x512_1_0_0_1_n_n = DotDims.plain 2048 512 512 := rfl

/-- The stored value at `(p, q)`. -/
theorem pay_apply (x0 : FVec Ideal S2048x512 .f32) (x1 : FVec Ideal S512x512 .bf16) (p : Fin 2048) (q : Fin 512) :
    k0_pay1 (F := Ideal) x0 x1 (ix2 p q) = ∑ k : Fin 512, x0 (ix2 p k) * x1 (ix2 k q) := by
  unfold k0_pay1
  show FloatOps.matmul dot_S2048x512_S512x512_S2048x512_1_0_0_1_n_n none
      (truncf .bf16 (shapeCast S2048x512 x0 shapeCasts_S2048x512_S2048x512) bitsLt_bf16_f32)
      (shapeCast S512x512 x1 shapeCasts_S512x512_S512x512) (constant S2048x512 .f32 0x00000000#32) (ix2 p q) = _
  rw [bodyDot_eq]
  refine (Cert.PlainDot.matmul_zero_apply none _ _ p q).trans ?_
  refine Finset.sum_congr rfl fun k _ => ?_
  rw [truncf_apply, shapeCast_self, shapeCast_self]

end Cert.KernelIdeal.Hand

end
-- ==== Proof.KernelValue.lean ====
/-
  From the kernel's blocks to its output array.

  The grid has 16 points.  At point `t` the body reads block `t` of the rows (2048 rows, all 512 columns) and the whole
  folded-weights matrix, and writes block `t` of the output (the same 2048 rows).  Row `p` of block `t` is row
  `2048·t + p` of the array, so what point `t` writes back is block `t` of ONE function of the two input arrays:
  `product X Y (r, q) = ∑ k, X (r, k) · Y (k, q)`.  The 16 blocks cover the 32768 rows (row `r` is in block `r / 2048`),
  so the output array ends holding `product` of the two input arrays.
-/
import proofs.«100827_j34935263985944_2_alg».proof.Proof.Gen.KernelIdeal.Frame
import proofs.«100827_j34935263985944_2_alg».proof.Proof.KernelBlock
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's rectangles start at the origin. -/
theorem zeroOff : (![0, 0] : Fin 2 → Nat) = fun _ => 0 := funext fun a => by fin_cases a <;> rfl

/-- Rows times a matrix: the output array as one function of the two input arrays. -/
def product (X : S32768x512.Idx → EReal) (Y : S512x512.Idx → EReal) : S32768x512.Idx → EReal :=
  fun i => ∑ k : Fin 512, X (ix2 (n0 := 32768) (i 0) k) * Y (ix2 k (n1 := 512) (i 1))

/-- The printed index maps, decided over the grid: the rows' block and the output's block are both block `t`, on
    all columns; the folded weights' block is the whole matrix. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 15
    ∧ win0_2.index t (1 : Fin 2) = 0 :=
  (by decide +kernel : ∀ t : Fin grid0.N, _)

/-- Every block of rows is some point's. -/
theorem idx_onto : ∀ (q0 : Fin 16), ∃ t : Fin cfg0.N, win0_2.index t = ![q0.val, 0] :=
  (by decide +kernel : ∀ (q0 : Fin 16), ∃ t : Fin grid0.N, win0_2.index t = ![q0.val, 0])

/-- What the body stores at point `t`, at `(p, q)` of the block, is `product` of the input arrays at the array index
    under `(p, q)`. -/
theorem stored_at (c : Dev nD) (t : Fin cfg0.N) (p : Fin 2048) (q : Fin 512) :
    k0_pay1 (F := Ideal) (iblk m c 0 t) (iblk m c 1 t) (ix2 p q)
      = product (V m c main_v15) (V m c main_v14) (((cfg0.win 2).blk t).view.emb (ix2 p q)) := by
  obtain ⟨e0, e1, e2, e3, e4, e5⟩ := idx_facts t
  refine (pay_apply (iblk m c 0 t) (iblk m c 1 t) p q).trans ?_
  unfold product
  refine Finset.sum_congr rfl fun k _ => ?_
  have h0 : iblk m c 0 t (ix2 p k)
      = V m c main_v15 (ix2 (n0 := 32768) ((((cfg0.win 2).blk t).view.emb (ix2 p q)) 0) k) := by
    show V m c main_v15 (((cfg0.win 0).blk t).view.emb (ix2 p k)) = V m c main_v15 _
    refine congrArg (V m c main_v15) (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 512 + 1 * k.val = k.val; omega
  have h1 : iblk m c 1 t (ix2 k q)
      = V m c main_v14 (ix2 k (n1 := 512) ((((cfg0.win 2).blk t).view.emb (ix2 p q)) 1)) := by
    show V m c main_v14 (((cfg0.win 1).blk t).view.emb (ix2 k q)) = V m c main_v14 _
    refine congrArg (V m c main_v14) (funext fun a => Fin.ext ?_)
    match a with
    | ⟨0, _⟩ => show win0_1.index t (0 : Fin 2) * 512 + 1 * k.val = k.val; omega
    | ⟨1, _⟩ => show win0_1.index t (1 : Fin 2) * 512 + 1 * q.val = win0_2.index t (1 : Fin 2) * 512 + 1 * q.val; omega
  rw [h0, h1]

/-- WHAT POINT `t` WRITES BACK is block `t` of `product` of the input arrays as the region finds them. -/
theorem flushed_eq (c : Dev nD) (t : Fin cfg0.N) :
    (dats m 0 c).flushed 2 t
      = ((cfg0.win 2).blk t).view.read (Elt Ideal) (product (V m c main_v15) (V m c main_v14)) := by
  show (cfg0.win 2).cut (grid0.coords t) ((dats m 0 c).after 2 t) = _
  rw [after0_2]
  unfold out0_2
  rw [View.canon_unit_zero zeroOff]
  simp only [View.ld_unit_zero (S := S2048x512) zeroOff, View.ld_unit_zero (S := S512x512) zeroOff]
  funext j
  obtain ⟨p, q, rfl⟩ : ∃ (p : Fin 2048) (q : Fin 512), j = ix2 p q := ⟨j 0, j 1, eq_ix2 j⟩
  exact stored_at m c t p q

/-- An index of the array is in point `t`'s block iff each coordinate is in the block's range on its axis. -/
theorem mem_blk (t : Fin cfg0.N) (i : S32768x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v16).slice (win0_2.rect t)).set ↔ _
  rw [View.set_slice_whole, Rect.mem_set_unit]
  exact Iff.rfl

/-- The blocks cover the array: row `r` is in the block of point `r / 2048`. -/
theorem cover (i : S32768x512.Idx) :
    ∃ t : Fin cfg0.N, (cfg0.win 2).flush t = true ∧ i ∈ ((cfg0.win 2).blk t).view.set := by
  have hi0 : (i 0).val < 32768 := (i 0).isLt
  have hi1 : (i 1).val < 512 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- THE OUTPUT ARRAY after the run is `product` of the two input arrays as the region finds them. -/
theorem final (c : Dev nD) : (dats m 0 c).arrAt 2 cfg0.N = product (V m c main_v15) (V m c main_v14) :=
  (dats m 0 c).arrAt_eq_of_cover 2 _ (fun t _ => flushed_eq m c t) cover

end Cert.KernelIdeal.Hand

end
-- ==== Proof.LibRealEntries.lean ====
/-
  Extended reals that are real numbers: a small library.

  `IsReal x` says the extended real `x` is a real number (neither infinity). Real entries are closed under
  sums, products and finite sums; an entry below +∞ in absolute value is real; a scatter-add of real updates
  onto a real operand is real everywhere. The coercion ℝ → EReal commutes with finite sums. Last, one algebraic
  law that needs real entries (distributivity fails at the infinities): a row `a` through two affine maps in a
  row, `(a · W₁ + b₁) · W₂ + b₂`, is the row through the collapsed map, `a · (W₁ W₂) + (b₁ · W₂ + b₂)`.
-/
import Idealize.ShloMosaic.PureOps.Ideal

namespace Cert.Hand

open scoped BigOperators

/-- An extended real that is a real number (neither infinity). -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An extended real strictly between the infinities in absolute value is a real number. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for a row `a`, weights `w₁`, `w₂` (the second at one output column) and biases `b₁`, `b₂`,
    all real, the collapsed affine map `a · (w₁ w₂) + (b₁ · w₂ + b₂)` is the two maps in a row,
    `(a · w₁ + b₁) · w₂ + b₂`. -/
theorem affine_collapse {K L : Type} [Fintype K] [Fintype L]
    (a : K → EReal) (w₁ : K → L → EReal) (b₁ : L → EReal) (w₂ : L → EReal) (b₂ : EReal)
    (ha : ∀ k, IsReal (a k)) (hw₁ : ∀ k l, IsReal (w₁ k l)) (hb₁ : ∀ l, IsReal (b₁ l))
    (hw₂ : ∀ l, IsReal (w₂ l)) (hb₂ : IsReal b₂) :
    (∑ k, a k * ∑ l, w₁ k l * w₂ l) + ((∑ l, b₁ l * w₂ l) + b₂)
      = (∑ l, ((∑ k, a k * w₁ k l) + b₁ l) * w₂ l) + b₂ := by
  choose a' ha' using ha
  choose w₁' hw₁' using hw₁
  choose b₁' hb₁' using hb₁
  choose w₂' hw₂' using hw₂
  obtain ⟨b₂', rfl⟩ := hb₂
  obtain rfl : a = fun k => (a' k : EReal) := funext ha'
  obtain rfl : w₁ = fun k l => (w₁' k l : EReal) := funext fun k => funext (hw₁' k)
  obtain rfl : b₁ = fun l => (b₁' l : EReal) := funext hb₁'
  obtain rfl : w₂ = fun l => (w₂' l : EReal) := funext hw₂'
  simp only [← EReal.coe_mul, ← coe_sum, ← EReal.coe_add]
  congr 1
  simp only [Finset.mul_sum, add_mul, Finset.sum_mul, Finset.sum_add_distrib]
  rw [Finset.sum_comm]
  simp only [mul_assoc, add_assoc]

/-- A scatter-add of real updates onto a real operand is real everywhere: each entry is the operand's entry
    plus a finite sum of updates (the ones that land on it). -/
theorem hostScatterAdd_isReal {s si su : Idealize.ShloMosaic.Shape} (d : Idealize.ShloMosaic.ScatterDims s si su) {w : Nat}
    (x : s.Idx → EReal) (idx : Idealize.ShloMosaic.IVec si w) (upd : su.Idx → EReal)
    (hx : ∀ i, IsReal (x i)) (hu : ∀ j, IsReal (upd j)) (i : s.Idx) :
    IsReal (Idealize.ShloMosaic.Ideal.hostScatterAdd d x idx upd i) :=
  IsReal.add (hx i) (IsReal.sum _ _ fun j _ => hu j)

end Cert.Hand
-- ==== Proof.Dequant.lean ====
/-
  The dequantized weights, as one function, and why its entries are real numbers.

  Both programs turn the 4-bit codes `q` ([512, 512] integers) and the per-block scales `sc` (4096 of them, one per run
  of 64 consecutive weights in row-major order) into weights the same way: a negative code has 16 added, the code picks
  an entry of a 16-entry table, the [512, 512] picks are regrouped as [4096, 64], each row is multiplied by its block's
  scale, and the product is regrouped as [512, 512].  The proof never opens this chain: it is carried as the one function
  `dequant`.  All that is needed of it is that every entry is a real number when the table's entries and the scales are:
  an entry is ONE table entry (whatever the code, the lookup returns some entry of the table) times ONE scale.
-/
import proofs.«100827_j34935263985944_2_alg».proof.Proof.LibRealEntries
import Idealize.ShloMosaic.PureOps.Ideal
import Idealize.ShloMosaic.Lib.ValueIdx

noncomputable section

namespace Cert.Hand

open Idealize.ShloMosaic Idealize.ShloMosaic.ValueIdx

/-- The shapes of the chain: codes and weights, codes with a trailing unit axis, the table, weights by block, scales. -/
abbrev Wt : Shape := ⟨2, ![512, 512]⟩
abbrev Wt1 : Shape := ⟨3, ![512, 512, 1]⟩
abbrev Tab : Shape := ⟨1, ![16]⟩
abbrev Blk : Shape := ⟨2, ![4096, 64]⟩
abbrev Sc : Shape := ⟨1, ![4096]⟩
abbrev Sc1 : Shape := ⟨2, ![4096, 1]⟩
abbrev Sca : Shape := ⟨0, ![]⟩

/-- The dequantized weights from the codes `q` and the scales `sc`, through the table `tbl`. -/
def dequant (g : GatherDims Tab Wt1 Wt)
    (h0 : Sca.BroadcastsInDim Wt (![] : Fin 0 → Fin Wt.rank))
    (h1 : Wt.BroadcastsInDim Wt1 (![0, 1] : Fin 2 → Fin Wt1.rank))
    (h2 : Wt.ShapeCasts Blk)
    (h3 : Sc.BroadcastsInDim Sc1 (![0] : Fin 1 → Fin Sc1.rank))
    (h4 : Sc1.BroadcastsInDim Blk (![0, 1] : Fin 2 → Fin Blk.rank))
    (h5 : Blk.ShapeCasts Wt)
    (tbl : FVec Ideal Tab .f32) (q : IVec Wt 32) (sc : FVec Ideal Sc .f32) : FVec Ideal Wt .f32 :=
  shapeCast Wt
    (mulf
      (shapeCast Blk
        (Host.gather g tbl
          (broadcastInDim Wt1 ![0, 1] h1
            (select (cmpi .slt q (broadcastInDim Wt ![] h0 (constantI Sca 32 0#32)))
              (addi q (broadcastInDim Wt ![] h0 (constantI Sca 32 16#32))) q))) h2)
      (broadcastInDim Blk ![0, 1] h4 (broadcastInDim Sc1 ![0] h3 sc))) h5

/-- Every dequantized weight is a real number when the table's entries and the scales are: it is one table entry times
    one scale. -/
theorem dequant_isReal (g : GatherDims Tab Wt1 Wt) (h0) (h1) (h2) (h3) (h4) (h5)
    (tbl : FVec Ideal Tab .f32) (q : IVec Wt 32) (sc : FVec Ideal Sc .f32)
    (htbl : ∀ k, IsReal (tbl k)) (hsc : ∀ k, IsReal (sc k)) (i : Wt.Idx) :
    IsReal (dequant g h0 h1 h2 h3 h4 h5 tbl q sc i) := by
  unfold dequant
  unfold shapeCast
  rw [mulf_apply]
  refine IsReal.mul ?_ ?_
  · unfold Host.gather
    exact htbl _
  · unfold broadcastInDim
    exact hsc _

/-- A 32-bit pattern whose exponent field is not all ones denotes a real number. -/
theorem ieee32_isReal (b : BitVec 32) (h : (b.extractLsb' 23 8).toNat ≠ 2 ^ 8 - 1) : IsReal (Ideal.ofBits .f32 b) := by
  show IsReal (Ideal.ieee 8 23 b)
  unfold Ideal.ieee
  simp only
  rw [if_neg h]
  split
  · exact ⟨_, rfl⟩
  · exact ⟨_, rfl⟩

end Cert.Hand

end
-- ==== Proof.KernelHost.lean ====
/-
  What the kernel's region finds in its two input arrays.

  Before the region the host dequantizes the weights (the shared chain `dequant`), folds the two weight matrices into
  one — the dense weights times the dequantized weights, a plain 512×512 by 512×512 product —, transposes the product and
  narrows it to bf16 (the identity on exact values); and it regroups the activations [4, 8192, 512] as 32768 rows of 512.
-/
import proofs.«100827_j34935263985944_2_alg».proof.Proof.Gen.KernelIdeal.Frame
import proofs.«100827_j34935263985944_2_alg».proof.Proof.Dequant
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

/-- The 16-entry table of the 4-bit codes' values. -/
abbrev table : FVec Ideal S16 .f32 := fun i => FloatOps.ofBits (F := Ideal) .f32 (lit0 (S16.rowMajor i))

/-- The dequantized weights as the kernel's host code computes them from the codes and the scales. -/
abbrev weights (q : IVec S512x512 32) (sc : FVec Ideal S4096 .f32) : FVec Ideal S512x512 .f32 :=
  Cert.Hand.dequant gather_S16_S512x512x1_S512x512_n_0_n_n_0_2_1 bcast_S_S512x512 bcast_S512x512_S512x512x1_0_1
    shapeCasts_S512x512_S4096x64 bcast_S4096_S4096x1_0 bcast_S4096x1_S4096x64_0_1 shapeCasts_S4096x64_S512x512 table q sc

/-- The folded weights as the region finds them: the dense weights `W` times the dequantized weights `w`, transposed
    and narrowed. -/
abbrev folded (W w : FVec Ideal S512x512 .f32) : FVec Ideal S512x512 .bf16 :=
  truncf .bf16 (transpose S512x512 [1, 0] (Host.dotGeneral (F := Ideal) dot_S512x512_S512x512_S512x512_1_0_0_1_n_n none W w)
    transposes_S512x512_S512x512_1_0) bitsLt_bf16_f32

variable (m : (ℓ : Loc nD τ sig) → Buf (Elt Ideal) ℓ)

/-- The region's second input array holds the folded weights of the launch's arguments. -/
theorem V_folded (c : Dev nD) :
    (V m c main_v14 : S512x512.Idx → EReal)
      = folded (m ((c : Thread nD τ).loc main_arg3)) (weights (m ((c : Thread nD τ).loc main_arg1)) (m ((c : Thread nD τ).loc main_arg2))) := by
  show StableHlo.after hostOps0 (fun b => m (c, b)) (Proc.devRef .tc main_v14) = _
  after_results
  rfl

/-- The region's first input array holds the activations, regrouped as rows. -/
theorem V_rows (c : Dev nD) :
    (V m c main_v15 : S32768x512.Idx → EReal)
      = shapeCast S32768x512 (m ((c : Thread nD τ).loc main_arg0)) shapeCasts_S4x8192x512_S32768x512 := by
  show StableHlo.after hostOps0 (fun b => m (c, b)) (Proc.devRef .tc main_v15) = _
  after_results
  rfl

end Cert.KernelIdeal.Hand

end
-- ==== Proof.Law.lean ====
/-
  The law that joins the two programs, and the function both compute.

  The kernel folds the two weight matrices first: its entry is  ∑ k, a k · (∑ o, W o · w o k).  The reference applies
  them one after the other:  ∑ o, (∑ k, a k · w o k) · W o.  The two are one number when every entry is a real number
  (distributivity fails at the infinities, so the law is stated for real entries only): it is the associativity of the
  matrix product, read at one entry.
-/
import proofs.«100827_j34935263985944_2_alg».proof.Proof.LibRealEntries
import Idealize.ShloMosaic.Lib.ValueIdx

noncomputable section

open scoped BigOperators

namespace Cert.Hand

open Idealize.ShloMosaic Idealize.ShloMosaic.ValueIdx

/-- Associativity of the matrix product at one entry: a row `a` against the folded weights `W · w` is the row taken
    through `w` and then through `W`, for real entries. -/
theorem fold_weights {K O : Type} [Fintype K] [Fintype O] (a : K → EReal) (w : O → K → EReal) (W : O → EReal)
    (ha : ∀ k, IsReal (a k)) (hw : ∀ o k, IsReal (w o k)) (hW : ∀ o, IsReal (W o)) :
    (∑ k, a k * ∑ o, W o * w o k) = ∑ o, (∑ k, a k * w o k) * W o := by
  choose a' ha' using ha
  choose w' hw' using hw
  choose W' hW' using hW
  obtain rfl : a = fun k => (a' k : EReal) := funext ha'
  obtain rfl : w = fun o k => (w' o k : EReal) := funext fun o => funext (hw' o)
  obtain rfl : W = fun o => (W' o : EReal) := funext hW'
  simp only [← EReal.coe_mul, ← coe_sum]
  congr 1
  simp only [Finset.mul_sum, Finset.sum_mul]
  rw [Finset.sum_comm]
  refine Finset.sum_congr rfl fun o _ => Finset.sum_congr rfl fun k _ => ?_
  ring

/-- The result both programs compute, entry by entry: activations `x` of shape [4, 8192, 512] taken through the
    dequantized weights `w` (rows are output features) and then through the dense weights `W`:
    out[b, s, q] = ∑ o, (∑ k, x[b, s, k] · w[o, k]) · W[q, o]. -/
def entry (x : (⟨3, ![4, 8192, 512]⟩ : Shape).Idx → EReal) (W w : (⟨2, ![512, 512]⟩ : Shape).Idx → EReal)
    (b : Fin 4) (s : Fin 8192) (q : Fin 512) : EReal :=
  ∑ o : Fin 512, (∑ k : Fin 512, x (ix3 b s k) * w (ix2 o k)) * W (ix2 q o)

/-- The whole result array. -/
def result (x : (⟨3, ![4, 8192, 512]⟩ : Shape).Idx → EReal) (W w : (⟨2, ![512, 512]⟩ : Shape).Idx → EReal) :
    (⟨3, ![4, 8192, 512]⟩ : Shape).Idx → EReal :=
  fun i => entry x W w (i 0) (i 1) (i 2)

/-- The kernel's arrangement of one entry — the row against the folded weights — is that entry. -/
theorem folded_entry (x : (⟨3, ![4, 8192, 512]⟩ : Shape).Idx → EReal) (W w : (⟨2, ![512, 512]⟩ : Shape).Idx → EReal)
    (hx : ∀ i, IsReal (x i)) (hW : ∀ i, IsReal (W i)) (hw : ∀ i, IsReal (w i)) (b : Fin 4) (s : Fin 8192) (q : Fin 512) :
    (∑ k : Fin 512, x (ix3 b s k) * ∑ o : Fin 512, W (ix2 q o) * w (ix2 o k)) = entry x W w b s q :=
  fold_weights (fun k => x (ix3 b s k)) (fun o k => w (ix2 o k)) (fun o => W (ix2 q o))
    (fun _ => hx _) (fun _ _ => hw _) (fun _ => hW _)

end Cert.Hand

end
-- ==== Proof.KernelEntry.lean ====
/-
  The kernel's result, entry by entry.

  The kernel's result regroups the region's output (32768 rows of 512) as [4, 8192, 512]: entry `(b, s, q)` is row
  `8192·b + s`, column `q`.  That row of the output is the same row of the regrouped activations — the activations at
  `(b, s, ·)` — against the folded weights; and the folded weights at `(k, q)` are the dense weights' row `q` against
  column `k` of the dequantized weights.  So the entry is  ∑ k, x[b, s, k] · (∑ o, W[q, o] · w[o, k]),  which for real
  entries is the specification's entry (the associativity of the matrix product).
-/
import proofs.«100827_j34935263985944_2_alg».proof.Proof.KernelHost
import proofs.«100827_j34935263985944_2_alg».proof.Proof.KernelValue
import proofs.«100827_j34935263985944_2_alg».proof.Proof.Law
import proofs.«100827_j34935263985944_2_alg».proof.Proof.LibPlainDot
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.Hand

/-- The kernel's result as a term of the arguments: the region's output over the regrouped activations and the folded
    weights, regrouped. -/
abbrev out (x : FVec Ideal S4x8192x512 .f32) (q : IVec S512x512 32) (sc : FVec Ideal S4096 .f32) (W : FVec Ideal S512x512 .f32) :
    FVec Ideal S4x8192x512 .f32 :=
  shapeCast S4x8192x512
    (product (shapeCast S32768x512 x shapeCasts_S4x8192x512_S32768x512) (folded W (weights q sc)))
    shapeCasts_S32768x512_S4x8192x512

/-- The printed dimension numbers of the host's fold are those of a plain 512×512 by 512×512 product. -/
theorem hostDot_eq : dot_S512x512_S512x512_S512x512_1_0_0_1_n_n = DotDims.plain 512 512 512 := rfl

/-- The folded weights at `(k, q)`: the dense weights' row `q` against column `k` of the dequantized weights. -/
theorem folded_apply (W w : FVec Ideal S512x512 .f32) (k q : Fin 512) :
    folded W w (ix2 k q) = ∑ o : Fin 512, W (ix2 q o) * w (ix2 o k) := by
  show truncf .bf16 (transpose S512x512 [1, 0]
      (FloatOps.dotGeneral dot_S512x512_S512x512_S512x512_1_0_0_1_n_n none .single W w) transposes_S512x512_S512x512_1_0)
      bitsLt_bf16_f32 (ix2 k q) = _
  rw [truncf_apply, transpose_ix2_apply, hostDot_eq, Cert.PlainDot.dotGeneral_apply]

/-- The regrouped activations at row `8192·b + s`, column `k`: the activations at `(b, s, k)`. -/
theorem rows_apply (x : FVec Ideal S4x8192x512 .f32) (b : Fin 4) (s : Fin 8192) (k : Fin 512) (hr : b.val * 8192 + s.val < 32768) :
    shapeCast S32768x512 x shapeCasts_S4x8192x512_S32768x512 (ix2 ⟨b.val * 8192 + s.val, hr⟩ k) = x (ix3 b s k) := by
  refine shapeCast_apply x _ _ _ ?_
  rw [Shape.rowMajor_val_three, Shape.rowMajor_val_two]
  show (b.val * 8192 + s.val) * 512 + k.val = (b.val * 8192 + s.val) * 512 + k.val
  rfl

/-- The kernel's result at `(b, s, q)`, for real entries, is the specification's entry over the dequantized weights. -/
theorem out_apply (x : FVec Ideal S4x8192x512 .f32) (q : IVec S512x512 32) (sc : FVec Ideal S4096 .f32) (W : FVec Ideal S512x512 .f32)
    (hx : ∀ i, IsReal (x i)) (hW : ∀ i, IsReal (W i)) (hw : ∀ i, IsReal (weights q sc i))
    (b : Fin 4) (s : Fin 8192) (p : Fin 512) :
    out x q sc W (ix3 b s p) = entry x W (weights q sc) b s p := by
  have hb : b.val < 4 := b.isLt
  have hs : s.val < 8192 := s.isLt
  have hr : b.val * 8192 + s.val < 32768 := by omega
  have e : out x q sc W (ix3 b s p)
      = product (shapeCast S32768x512 x shapeCasts_S4x8192x512_S32768x512) (folded W (weights q sc))
          (ix2 ⟨b.val * 8192 + s.val, hr⟩ p) := by
    refine shapeCast_apply _ _ _ _ ?_
    rw [Shape.rowMajor_val_three, Shape.rowMajor_val_two]
    show (b.val * 8192 + s.val) * 512 + p.val = (b.val * 8192 + s.val) * 512 + p.val
    rfl
  rw [e]
  unfold product
  show (∑ k : Fin 512, shapeCast S32768x512 x shapeCasts_S4x8192x512_S32768x512 (ix2 ⟨b.val * 8192 + s.val, hr⟩ k)
      * folded W (weights q sc) (ix2 k p)) = _
  rw [← folded_entry x W (weights q sc) hx hW hw b s p]
  refine Finset.sum_congr rfl fun k _ => ?_
  rw [rows_apply x b s k hr, folded_apply]

/-- The whole result array, for real entries, is the specification's. -/
theorem out_eq (x : FVec Ideal S4x8192x512 .f32) (q : IVec S512x512 32) (sc : FVec Ideal S4096 .f32) (W : FVec Ideal S512x512 .f32)
    (hx : ∀ i, IsReal (x i)) (hW : ∀ i, IsReal (W i)) (hw : ∀ i, IsReal (weights q sc i)) :
    out x q sc W = result x W (weights q sc) := by
  funext i
  obtain ⟨b, s, p, rfl⟩ : ∃ (b : Fin 4) (s : Fin 8192) (p : Fin 512), i = ix3 b s p := ⟨i 0, i 1, i 2, eq_ix3 i⟩
  exact out_apply x q sc W hx hW hw b s p

end Cert.KernelIdeal.Hand

end
-- ==== Proof.KernelRun.lean ====
/-
  The kernel's run, read back.

  The generated frame run ends with the region's output array at what the blocks wrote and every other buffer as the one
  host operation after the region leaves it.  That operation regroups the output array as [4, 8192, 512] into the result
  buffer.  With the output array known (`final`) and the region's two input arrays read off the host operations before it
  (`V_rows`, `V_folded`), the result buffer ends at the term `out` of the argument arrays, and the arguments unchanged.
-/
import proofs.«100827_j34935263985944_2_alg».proof.Proof.Gen.KernelIdeal.Frame
import proofs.«100827_j34935263985944_2_alg».proof.Proof.KernelValue
import proofs.«100827_j34935263985944_2_alg».proof.Proof.KernelHost
import proofs.«100827_j34935263985944_2_alg».proof.Proof.KernelEntry
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer after the host operation that follows the region. -/
theorem tail_eq (c : Dev nD) :
    (Pipeline.afterTail₀ cfgs (dats m) 0 (V0 m) [hostOps1] c main_v17 : S4x8192x512.Idx → EReal)
      = out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = product (V m c main_v15) (V m c main_v14) :=
    (Pipeline.withArrays_arr spec0 launch0.win.arr_inj c _ _ 2).trans (final m c)
  rw [e, V_rows, V_folded]
  rfl

/-- On every device, from any memory with zero counters: every weakly fair execution of @main terminates with the
    result at `out` of the arguments, and the arguments unchanged. -/
theorem run : θ_run defs (onTc (τ := τ) (main (F := Ideal))) ⟨m, fun _ => 0, ρ⟩ fun r => ∀ c : Dev nD,
      r.2.mem ((c.tc : Thread nD τ).loc main_v17)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefRun.lean ====
/-
  The reference's run, read back.

  The reference is a straight line of 18 host operations: the dequantization chain, then two contractions — the
  activations against the dequantized weights (over the weights' columns), and the result against the dense weights
  (again over their columns).  Every weakly fair execution ends with the result buffer at the operations' composed term
  of the argument arrays, and the arguments unchanged.
-/
import proofs.«100827_j34935263985944_2_alg».proof.Proof.Gen.ReferenceIdeal
import proofs.«100827_j34935263985944_2_alg».proof.Proof.Dequant
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 18 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S512x512 ![] bcast_S_S512x512 : (⟨S_, .i32⟩ : BufTy).Contents (Elt F) → (⟨S512x512, .i32⟩ : BufTy).Contents (Elt F)),
    binary main_arg1 main_v0 main_v1 (cmpi .slt : (⟨S512x512, .i32⟩ : BufTy).Contents (Elt F) → (⟨S512x512, .i32⟩ : BufTy).Contents (Elt F) → (⟨S512x512, .i1⟩ : BufTy).Contents (Elt F)),
    nullary main_c_0 (constantI S_ 32 16#32),
    unary main_c_0 main_v2 (broadcastInDim S512x512 ![] bcast_S_S512x512 : (⟨S_, .i32⟩ : BufTy).Contents (Elt F) → (⟨S512x512, .i32⟩ : BufTy).Contents (Elt F)),
    binary main_arg1 main_v2 main_v3 (addi : (⟨S512x512, .i32⟩ : BufTy).Contents (Elt F) → (⟨S512x512, .i32⟩ : BufTy).Contents (Elt F) → (⟨S512x512, .i32⟩ : BufTy).Contents (Elt F)),
    ternary main_v1 main_v3 main_arg1 main_v4 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    unary main_v4 main_v5 (broadcastInDim S512x512x1 ![0, 1] bcast_S512x512_S512x512x1_0_1 : (⟨S512x512, .i32⟩ : BufTy).Contents (Elt F) → (⟨S512x512x1, .i32⟩ : BufTy).Contents (Elt F)),
    binary main_cst main_v5 main_v6 ((fun x i => Host.gather gather_S16_S512x512x1_S512x512_n_0_n_n_0_2_1 x i) : (⟨S16, .f32⟩ : BufTy).Contents (Elt F) → (⟨S512x512x1, .i32⟩ : BufTy).Contents (Elt F) → (⟨S512x512, .f32⟩ : BufTy).Contents (Elt F)),
    reshape main_v6 main_v7 rfl shapeCasts_S512x512_S4096x64,
    unary main_arg2 main_v8 (broadcastInDim S4096x1 ![0] bcast_S4096_S4096x1_0 : (⟨S4096, .f32⟩ : BufTy).Contents (Elt F) → (⟨S4096x1, .f32⟩ : BufTy).Contents (Elt F)),
    unary main_v8 main_v9 (broadcastInDim S4096x64 ![0, 1] bcast_S4096x1_S4096x64_0_1 : (⟨S4096x1, .f32⟩ : BufTy).Contents (Elt F) → (⟨S4096x64, .f32⟩ : BufTy).Contents (Elt F)),
    binary main_v7 main_v9 main_v10 (mulf : (⟨S4096x64, .f32⟩ : BufTy).Contents (Elt F) → (⟨S4096x64, .f32⟩ : BufTy).Contents (Elt F) → (⟨S4096x64, .f32⟩ : BufTy).Contents (Elt F)),
    reshape main_v10 main_v11 rfl shapeCasts_S4096x64_S512x512,
    binary main_arg0 main_v11 main_v12 ((fun l r => Host.dotGeneral dot_S4x8192x512_S512x512_S4x8192x512_2_1_01_0_n_n none l r) : (⟨S4x8192x512, .f32⟩ : BufTy).Contents (Elt F) → (⟨S512x512, .f32⟩ : BufTy).Contents (Elt F) → (⟨S4x8192x512, .f32⟩ : BufTy).Contents (Elt F)),
    binary main_v12 main_arg3 main_v13 ((fun l r => Host.dotGeneral dot_S4x8192x512_S512x512_S4x8192x512_2_1_01_0_n_n none l r) : (⟨S4x8192x512, .f32⟩ : BufTy).Contents (Elt F) → (⟨S512x512, .f32⟩ : BufTy).Contents (Elt F) → (⟨S4x8192x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., binary_bufs_sub ..⟩

/-- The 16-entry table of the 4-bit codes' values. -/
abbrev table : FVec Ideal S16 .f32 := fun i => FloatOps.ofBits (F := Ideal) .f32 (lit0 (S16.rowMajor i))

/-- The dequantized weights as the reference computes them from the codes and the scales. -/
abbrev weights (q : IVec S512x512 32) (sc : FVec Ideal S4096 .f32) : FVec Ideal S512x512 .f32 :=
  Cert.Hand.dequant gather_S16_S512x512x1_S512x512_n_0_n_n_0_2_1 bcast_S_S512x512 bcast_S512x512_S512x512x1_0_1
    shapeCasts_S512x512_S4096x64 bcast_S4096_S4096x1_0 bcast_S4096x1_S4096x64_0_1 shapeCasts_S4096x64_S512x512 table q sc

/-- The result as a term of the arguments: the two contractions over the dequantized weights. -/
abbrev out (x : FVec Ideal S4x8192x512 .f32) (q : IVec S512x512 32) (sc : FVec Ideal S4096 .f32) (W : FVec Ideal S512x512 .f32) :
    FVec Ideal S4x8192x512 .f32 :=
  Host.dotGeneral (F := Ideal) dot_S4x8192x512_S512x512_S4x8192x512_2_1_01_0_n_n none
    (Host.dotGeneral (F := Ideal) dot_S4x8192x512_S512x512_S4x8192x512_2_1_01_0_n_n none x (weights q sc)) W

/-- On every device, from any memory with zero counters: every weakly fair execution of @main terminates with the
    result at the two contractions over the dequantized weights, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops (F := Ideal)) main_eq (fun _ => ops_sub) m ρ)

end Cert.ReferenceIdeal.Hand

end
-- ==== Proof.LibRowsDotT.lean ====
/-
  A stack of rows against the rows of a matrix, read at an index.

  For the dimension numbers of a `[B, S, K]` array contracted with an `[N, K]` matrix over their LAST axes (no batch
  axis; the result is `[B, S, N]`) — what `einsum('bsk,nk->bsn')` lowers to — the left operand's index at result index
  `(b, s, q)` and contraction position `k` is `(b, s, k)` and the right operand's is `(q, k)`.  So, at the exact
  values, the host's `dot_general` is, at `(b, s, q)`, the sum over `k` of `l (b, s, k) · r (q, k)`.
-/
import Idealize.ShloMosaic.Lib.ValueIdx
import Idealize.ShloMosaic.PureOps.Ideal.Laws

noncomputable section

open scoped BigOperators

namespace Cert.RowsDotT

open Idealize.ShloMosaic Idealize.ShloMosaic.ValueIdx

variable (B S K N : ℕ)

/-- The well-formedness these dimension numbers ask of the three shapes; a program states it for its literal shapes. -/
abbrev WF : Prop :=
  DotDims.WF (⟨3, ![B, S, K]⟩ : Shape) (⟨2, ![N, K]⟩ : Shape) (⟨3, ![B, S, N]⟩ : Shape) [2] [1] [0, 1] [0] [] []

/-- The dimension numbers: contract the left operand's axis 2 with the right operand's axis 1; the result's axes are the
    left operand's axes 0 and 1, then the right operand's axis 0.  A printed record with these lists is this one, by
    `rfl`. -/
abbrev dims (wf : WF B S K N) : DotDims (⟨3, ![B, S, K]⟩ : Shape) (⟨2, ![N, K]⟩ : Shape) (⟨3, ![B, S, N]⟩ : Shape) where
  lhsContracting := [2]
  rhsContracting := [1]
  lhsNonContracting := [0, 1]
  rhsNonContracting := [0]
  lhsBatch := []
  rhsBatch := []
  wf := wf

variable (wf : WF B S K N)

/-- One axis is contracted, of extent `K`. -/
theorem contr_rank : (dims B S K N wf).contr.rank = 1 := rfl
theorem contr_size : (dims B S K N wf).contr.size ⟨0, by rw [contr_rank]; exact Nat.one_pos⟩ = K := rfl

/-- The contraction positions are the numbers below `K`. -/
abbrev pos : (dims B S K N wf).contr.Idx ≃ Fin K :=
  contrEquiv1 (dims B S K N wf) K (contr_rank B S K N wf) (contr_size B S K N wf)

/-- On its first two axes the left operand follows the result's first two axes. -/
theorem lhsIdx_0 (j : (⟨3, ![B, S, N]⟩ : Shape).Idx) (k : (dims B S K N wf).contr.Idx) :
    ((dims B S K N wf).lhsIdx j k 0).val = (j 0).val := by
  unfold DotDims.lhsIdx
  rw [dif_neg (show ¬(0 : Fin (⟨3, ![B, S, K]⟩ : Shape).rank) ∈ (dims B S K N wf).lhsBatch from List.not_mem_nil),
    dif_pos (show (0 : Fin (⟨3, ![B, S, K]⟩ : Shape).rank) ∈ (dims B S K N wf).lhsNonContracting from List.mem_cons_self)]
  rfl

theorem lhsIdx_1 (j : (⟨3, ![B, S, N]⟩ : Shape).Idx) (k : (dims B S K N wf).contr.Idx) :
    ((dims B S K N wf).lhsIdx j k 1).val = (j 1).val := by
  unfold DotDims.lhsIdx
  rw [dif_neg (show ¬(1 : Fin (⟨3, ![B, S, K]⟩ : Shape).rank) ∈ (dims B S K N wf).lhsBatch from List.not_mem_nil),
    dif_pos (show (1 : Fin (⟨3, ![B, S, K]⟩ : Shape).rank) ∈ (dims B S K N wf).lhsNonContracting from
      List.mem_cons_of_mem _ (List.mem_singleton.mpr rfl))]
  rfl

/-- On its row axis the right operand follows the result's last axis. -/
theorem rhsIdx_0 (j : (⟨3, ![B, S, N]⟩ : Shape).Idx) (k : (dims B S K N wf).contr.Idx) :
    ((dims B S K N wf).rhsIdx j k 0).val = (j 2).val := by
  unfold DotDims.rhsIdx
  rw [dif_neg (show ¬(0 : Fin (⟨2, ![N, K]⟩ : Shape).rank) ∈ (dims B S K N wf).rhsBatch from List.not_mem_nil),
    dif_pos (show (0 : Fin (⟨2, ![N, K]⟩ : Shape).rank) ∈ (dims B S K N wf).rhsNonContracting from List.mem_singleton.mpr rfl)]
  rfl

/-- The left operand is read at `(b, s, k)`. -/
theorem lhsIdx_eq (b : Fin B) (s : Fin S) (q : Fin N) (k : Fin K) :
    (dims B S K N wf).lhsIdx (ix3 b s q) ((pos B S K N wf).symm k) = ix3 b s k := by
  have hk := contrEquiv1_symm_val (dims B S K N wf) K (contr_rank B S K N wf) (contr_size B S K N wf) k
  funext a
  apply Fin.ext
  match a with
  | ⟨0, _⟩ => exact lhsIdx_0 B S K N wf _ _
  | ⟨1, _⟩ => exact lhsIdx_1 B S K N wf _ _
  | ⟨2, _⟩ => exact ((dims B S K N wf).lhsIdx_val_of_single (cl := (2 : Fin 3)) rfl _ _).trans hk

/-- The right operand is read at `(q, k)`. -/
theorem rhsIdx_eq (b : Fin B) (s : Fin S) (q : Fin N) (k : Fin K) :
    (dims B S K N wf).rhsIdx (ix3 b s q) ((pos B S K N wf).symm k) = ix2 q k := by
  have hk := contrEquiv1_symm_val (dims B S K N wf) K (contr_rank B S K N wf) (contr_size B S K N wf) k
  funext a
  apply Fin.ext
  match a with
  | ⟨0, _⟩ => exact rhsIdx_0 B S K N wf _ _
  | ⟨1, _⟩ => exact ((dims B S K N wf).rhsIdx_val_of_single (cr := (1 : Fin 2)) rfl _ _).trans hk

variable {B S K N}

/-- The host's `dot_general`, at `(b, s, q)`: the sum over `k < K` of the operands at `(b, s, k)` and `(q, k)`. -/
theorem dotGeneral_apply {φ₁ φ₂ : FTy} (prec : Option ContractPrecision) (sched : HostSchedule)
    (l : FVec Ideal ⟨3, ![B, S, K]⟩ φ₁) (r : FVec Ideal ⟨2, ![N, K]⟩ φ₂) (b : Fin B) (s : Fin S) (q : Fin N) :
    FloatOps.dotGeneral (dims B S K N wf) prec sched l r (ix3 b s q) = ∑ k : Fin K, l (ix3 b s k) * r (ix2 q k) := by
  refine (Ideal.dotGeneral_apply _ prec sched l r _).trans ?_
  rw [← Equiv.sum_comp (pos B S K N wf).symm]
  refine Finset.sum_congr rfl fun k _ => ?_
  rw [lhsIdx_eq, rhsIdx_eq]

end Cert.RowsDotT

end
-- ==== Proof.RefEntry.lean ====
/-
  The reference's result, entry by entry.

  The reference contracts the activations with the dequantized weights over the weights' columns,
  y[b, s, o] = ∑ k, x[b, s, k] · w[o, k], and then the result with the dense weights over their columns,
  out[b, s, q] = ∑ o, y[b, s, o] · W[q, o].  That is the specification's entry as it is written.
-/
import proofs.«100827_j34935263985944_2_alg».proof.Proof.RefRun
import proofs.«100827_j34935263985944_2_alg».proof.Proof.LibRowsDotT
import proofs.«100827_j34935263985944_2_alg».proof.Proof.Law

noncomputable section

open scoped BigOperators

namespace Cert.ReferenceIdeal.Hand

open Cert.ReferenceIdeal Cert.ReferenceIdeal.Gen Idealize.ShloMosaic Idealize.ShloMosaic.ValueIdx

/-- The printed dimension numbers are those of a stack of rows against the rows of a matrix. -/
theorem dot_eq : dot_S4x8192x512_S512x512_S4x8192x512_2_1_01_0_n_n
    = Cert.RowsDotT.dims 4 8192 512 512 Facts₀.dot_S4x8192x512_S512x512_S4x8192x512_2_1_01_0_n_n_wf := rfl

/-- The reference's result at `(b, s, q)` is the specification's entry over the dequantized weights. -/
theorem out_apply (x : FVec Ideal S4x8192x512 .f32) (q : IVec S512x512 32) (sc : FVec Ideal S4096 .f32)
    (W : FVec Ideal S512x512 .f32) (b : Fin 4) (s : Fin 8192) (p : Fin 512) :
    out x q sc W (ix3 b s p) = Cert.Hand.entry x W (weights q sc) b s p := by
  show FloatOps.dotGeneral dot_S4x8192x512_S512x512_S4x8192x512_2_1_01_0_n_n none .single
      (FloatOps.dotGeneral dot_S4x8192x512_S512x512_S4x8192x512_2_1_01_0_n_n none .single x (weights q sc)) W (ix3 b s p) = _
  rw [dot_eq, Cert.RowsDotT.dotGeneral_apply]
  unfold Cert.Hand.entry
  refine Finset.sum_congr rfl fun o _ => ?_
  rw [Cert.RowsDotT.dotGeneral_apply]

/-- The whole result array is the specification's. -/
theorem out_eq (x : FVec Ideal S4x8192x512 .f32) (q : IVec S512x512 32) (sc : FVec Ideal S4096 .f32)
    (W : FVec Ideal S512x512 .f32) : out x q sc W = Cert.Hand.result x W (weights q sc) := by
  funext i
  obtain ⟨b, s, p, rfl⟩ : ∃ (b : Fin 4) (s : Fin 8192) (p : Fin 512), i = ix3 b s p := ⟨i 0, i 1, i 2, eq_ix3 i⟩
  exact out_apply x q sc W b s p

end Cert.ReferenceIdeal.Hand

end
-- ==== Proof.Weights.lean ====
/-
  The two programs dequantize alike, and the dequantized weights are real numbers.

  The kernel's host code and the reference build the weights by the same chain over the same 16-entry table, so they are
  one function of the codes and the scales.  Every table entry is a finite number (no pattern among the 16 has an
  all-ones exponent field), so with real scales every dequantized weight is a real number.
-/
import proofs.«100827_j34935263985944_2_alg».proof.Proof.KernelHost
import proofs.«100827_j34935263985944_2_alg».proof.Proof.RefRun

noncomputable section

namespace Cert.Hand

open Idealize.ShloMosaic

/-- The two programs print the same table. -/
theorem lit_eq : ∀ n : Fin 16, Cert.ReferenceIdeal.lit0 n = Cert.KernelIdeal.lit0 n := by decide

/-- No entry's exponent field is all ones. -/
theorem lit_finite : ∀ n : Fin 16, ((Cert.KernelIdeal.lit0 n).extractLsb' 23 8).toNat ≠ 2 ^ 8 - 1 := by decide

/-- Every table entry is a real number. -/
theorem table_isReal (k : Cert.KernelIdeal.S16.Idx) : IsReal (Cert.KernelIdeal.Hand.table k) :=
  ieee32_isReal _ (lit_finite _)

/-- With real scales every dequantized weight is a real number. -/
theorem weights_isReal (q : IVec Cert.KernelIdeal.S512x512 32) (sc : FVec Ideal Cert.KernelIdeal.S4096 .f32)
    (hsc : ∀ k, IsReal (sc k)) (i : Cert.KernelIdeal.S512x512.Idx) : IsReal (Cert.KernelIdeal.Hand.weights q sc i) :=
  dequant_isReal _ _ _ _ _ _ _ _ q sc table_isReal hsc i

/-- The reference's dequantized weights are the kernel's. -/
theorem weights_eq (q : IVec Cert.KernelIdeal.S512x512 32) (sc : FVec Ideal Cert.KernelIdeal.S4096 .f32) :
    Cert.ReferenceIdeal.Hand.weights q sc = Cert.KernelIdeal.Hand.weights q sc := by
  have hg : Cert.ReferenceIdeal.gather_S16_S512x512x1_S512x512_n_0_n_n_0_2_1
      = Cert.KernelIdeal.gather_S16_S512x512x1_S512x512_n_0_n_n_0_2_1 := rfl
  have ht : Cert.ReferenceIdeal.Hand.table = Cert.KernelIdeal.Hand.table :=
    funext fun i => congrArg (Ideal.ofBits .f32) (lit_eq _)
  show dequant Cert.ReferenceIdeal.gather_S16_S512x512x1_S512x512_n_0_n_n_0_2_1 _ _ _ _ _ _ Cert.ReferenceIdeal.Hand.table q sc
    = dequant Cert.KernelIdeal.gather_S16_S512x512x1_S512x512_n_0_n_n_0_2_1 _ _ _ _ _ _ Cert.KernelIdeal.Hand.table q sc
  rw [hg, ht]

end Cert.Hand

end
-- ==== Proof.Finite.lean ====
/-
  What the precondition says of the float inputs.

  The precondition compares, for each float input, every entry's absolute value with +∞ and asks that all comparisons
  hold.  An extended real whose absolute value is strictly below +∞ is a real number, so under the precondition every
  entry of the activations, of the scales and of the dense weights is a real number.
-/
import proofs.«100827_j34935263985944_2_alg».proof.Pre_finite_inputs
import proofs.«100827_j34935263985944_2_alg».proof.Proof.LibRealEntries
import Idealize.ShloMosaic.PureOps.Ideal
import Idealize.ShloMosaic.Lib.ReduceAll
import Idealize.ShloMosaic.Lib.ValueIdx

noncomputable section

namespace Cert.Pre_finite_inputs.Hand

open Cert.Pre_finite_inputs Cert.Hand Idealize.ShloMosaic Idealize.ShloMosaic.ValueIdx

variable [Cert.Pre_finite_inputs.Facts]

/-- A scalar result has one index. -/
instance : Subsingleton S_.Idx := ⟨fun a b => funext fun d => d.elim0⟩

/-- The pattern the precondition compares with denotes +∞. -/
theorem ofBits_inf : Ideal.ofBits .f32 0x7F800000#32 = ⊤ := by
  simp [Ideal.ofBits, Ideal.ieee]

/-- An entry whose absolute value compares strictly below that pattern is a real number. -/
theorem isReal_of_cmp (x : EReal) (h : Ideal.cmp .olt (max x (-x)) (Ideal.ofBits .f32 0x7F800000#32) = 1#1) : IsReal x := by
  rw [ofBits_inf] at h
  by_cases hlt : max x (-x) < ⊤
  · exact isReal_of_abs_lt_top hlt
  · exfalso
    unfold Ideal.cmp at h
    simp only [decide_eq_false hlt] at h
    exact absurd h (by decide)

/-- Under the precondition every entry of each float input is a real number. -/
theorem real_of_pre (a0 : FVec Ideal S4x8192x512 .f32) (a1 : IVec S512x512 32) (a2 : FVec Ideal S4096 .f32)
    (a3 : FVec Ideal S512x512 .f32) (h : fn (F := Ideal) a0 a1 a2 a3 = fun _ => 1#1) :
    (∀ i, IsReal (a0 i)) ∧ (∀ i, IsReal (a2 i)) ∧ (∀ i, IsReal (a3 i)) := by
  have h' := congrFun h ix0
  dsimp only [fn] at h'
  obtain ⟨h12, h3⟩ := IntOp.andi_eq_one.1 h'
  obtain ⟨h1, h2⟩ := IntOp.andi_eq_one.1 h12
  refine ⟨fun i => ?_, fun i => ?_, fun i => ?_⟩
  · exact isReal_of_cmp _ (Host.reduce_andi_all _ _ _ _ _ h1 i)
  · exact isReal_of_cmp _ (Host.reduce_andi_all _ _ _ _ _ h2 i)
  · exact isReal_of_cmp _ (Host.reduce_andi_all _ _ _ _ _ h3 i)

end Cert.Pre_finite_inputs.Hand

end
-- ==== Proof.lean ====
/-
  A two-layer linear map with 4-bit quantized first weights: the kernel against its reference, over the extended reals.

  Both programs dequantize the first layer's weights `w` ([512, 512], rows are output features) from 4-bit codes and
  per-block scales by the same chain.  The reference then applies the two layers one after the other,
      out[b, s, q] = ∑ o, (∑ k, x[b, s, k] · w[o, k]) · W[q, o].
  The kernel's host code first folds the two weight matrices into one, `W · w`, transposes it, and its one region
  multiplies the activations (regrouped as 32768 rows, 2048 rows per grid point) by the folded matrix,
      out[b, s, q] = ∑ k, x[b, s, k] · (∑ o, W[q, o] · w[o, k]).
  The two are equal by the associativity of the matrix product — which needs distributivity, and so needs every entry to
  be a real number: the precondition gives that for the activations, the scales and the dense weights, and a dequantized
  weight is one entry of a table of 16 finite numbers times one scale.  Changes of float format are the identity on exact
  values, so the kernel's narrowing to bf16 changes nothing here.  The ideal pass rewrote no operation, so the
  idealization is the program's own text.
-/
import proofs.«100827_j34935263985944_2_alg».proof.Defs
import proofs.«100827_j34935263985944_2_alg».proof.Proof.Gen.Kernel
import proofs.«100827_j34935263985944_2_alg».proof.Proof.Gen.Kernel.Frame
import proofs.«100827_j34935263985944_2_alg».proof.Proof.Gen.KernelIdeal
import proofs.«100827_j34935263985944_2_alg».proof.Proof.Gen.KernelIdeal.Frame
import proofs.«100827_j34935263985944_2_alg».proof.Proof.Gen.ReferenceIdeal
import proofs.«100827_j34935263985944_2_alg».proof.Proof.Gen.Pre_finite_inputs
import proofs.«100827_j34935263985944_2_alg».proof.Proof.KernelRun
import proofs.«100827_j34935263985944_2_alg».proof.Proof.KernelEntry
import proofs.«100827_j34935263985944_2_alg».proof.Proof.RefRun
import proofs.«100827_j34935263985944_2_alg».proof.Proof.RefEntry
import proofs.«100827_j34935263985944_2_alg».proof.Proof.Weights
import proofs.«100827_j34935263985944_2_alg».proof.Proof.Finite
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- From memories agreeing on the arguments both programs end with the specification's array over the kernel's
    dequantized weights: the kernel by the associativity of the matrix product on real entries, the reference as
    written, its dequantized weights being the kernel's. -/
theorem algebraic : Cert.algebraic_KernelIdeal_ReferenceIdeal := by
  intro m ρ m' ρ' hpre hagree
  refine ⟨fun c => Cert.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (Cert.KernelIdeal.Hand.weights (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩) (Cert.KernelIdeal.Hand.run m ρ)
    obtain ⟨hx, hsc, hW⟩ := Cert.Pre_finite_inputs.Hand.real_of_pre _ _ _ _ (hpre c)
    exact Cert.KernelIdeal.Hand.out_eq _ _ _ _ hx hW (Cert.Hand.weights_isReal _ _ hsc)
  · refine (θ_run Cert.ReferenceIdeal.defs _ _).mono (fun _ h c => ⟨(h c).1.trans ?_, (h c).2⟩) (Cert.ReferenceIdeal.Hand.run m' ρ')
    rw [(hagree c).1, (hagree c).2.1, (hagree c).2.2.1, (hagree c).2.2.2, Cert.ReferenceIdeal.Hand.out_eq]
    exact congrArg _ (Cert.Hand.weights_eq _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
